-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S4096x2048 : Shape := ⟨2, ![4096, 2048]⟩
abbrev S2048 : Shape := ⟨1, ![2048]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16x1024x2048 .f32) (main_arg1 : FVec F S4096x2048 .f32) (main_arg2 : FVec F S2048 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16x1024x2048 : Shape := ⟨3, ![16, 1024, 2048]⟩
abbrev S4096x2048 : Shape := ⟨2, ![4096, 2048]⟩
abbrev S2048 : Shape := ⟨1, ![2048]⟩
abbrev S16384x2048 : Shape := ⟨2, ![16384, 2048]⟩
abbrev S2048x2048 : Shape := ⟨2, ![2048, 2048]⟩
abbrev S1x2048 : Shape := ⟨2, ![1, 2048]⟩
abbrev S256x2048 : Shape := ⟨2, ![256, 2048]⟩

abbrev nBuf : Space → Nat
  | .hbm => 11
  | .vmem => 7
  | .smem => 0
  | _ => 0

abbrev bufTy : (tb : Table) → Fin (tcTables nBuf tb) → BufTy
  | .hbm, ⟨0, _⟩ => ⟨S16x1024x2048, .f32⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .hbm, ⟨10, _⟩ => ⟨S16x1024x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x2048_S16384x2048 : S16x1024x2048.ShapeCasts S16384x2048
  slices_S4096x2048_S2048x2048_0_0 : S4096x2048.Slices ![0, 0] S2048x2048
  bitsLt_bf16_f32 : FTy.bits .bf16 < FTy.bits .f32
  slices_S4096x2048_S2048x2048_2048_0 : S4096x2048.Slices ![2048, 0] S2048x2048
  shapeCasts_S2048_S1x2048 : S2048.ShapeCasts S1x2048
  shapeCasts_S16384x2048_S16x1024x2048 : S16384x2048.ShapeCasts S16x1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_call0_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x2048 : Shape := ⟨3, ![16, 1024, 2048]⟩
abbrev S4096x2048 : Shape := ⟨2, ![4096, 2048]⟩
abbrev S2048 : Shape := ⟨1, ![2048]⟩
abbrev S_ : Shape := ⟨0, ![]⟩
abbrev S16x1024x4096 : Shape := ⟨3, ![16, 1024, 4096]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x1024x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S16x1024x2048, .f32⟩
  | .hbm, ⟨5, _⟩ => ⟨S16x1024x2048, .f32⟩
  | .hbm, ⟨6, _⟩ => ⟨S16x1024x2048, .f32⟩
  | .hbm, ⟨7, _⟩ => ⟨S16x1024x2048, .f32⟩
  | .hbm, ⟨8, _⟩ => ⟨S_, .f32⟩
  | .hbm, ⟨9, _⟩ => ⟨S16x1024x2048, .f32⟩
  | .hbm, ⟨10, _⟩ => ⟨S16x1024x2048, .f32⟩
  | .hbm, ⟨11, _⟩ => ⟨S16x1024x2048, .f32⟩
  | .hbm, ⟨12, _⟩ => ⟨S16x1024x2048, .f32⟩
  | .hbm, ⟨13, _⟩ => ⟨S_, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S16x1024x2048, .f32⟩
  | .hbm, ⟨18, _⟩ => ⟨S16x1024x4096, .f32⟩
  | .hbm, ⟨19, _⟩ => ⟨S16x1024x2048, .f32⟩
  | .hbm, ⟨20, _⟩ => ⟨S1x1x2048, .f32⟩
  | .hbm, ⟨21, _⟩ => ⟨S16x1024x2048, .f32⟩
  | .hbm, ⟨22, _⟩ => ⟨S16x1024x2048, .f32⟩
  | .hbm, ⟨23, _⟩ => ⟨S16x1024x2048, .f32⟩
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S16x1024x2048 : S_.BroadcastsInDim S16x1024x2048 (![] : Fin 0 → Fin S16x1024x2048.rank)
  concatenates_S16x1024x2048_S16x1024x2048_S16x1024x4096_d2 : Shape.Concatenates [S16x1024x2048, S16x1024x2048] S16x1024x4096 2
  bcast_S2048_S1x1x2048_2 : S2048.BroadcastsInDim S1x1x2048 (![2] : Fin 1 → Fin S1x1x2048.rank)
  bcast_S1x1x2048_S16x1024x2048_0_1_2 : S1x1x2048.BroadcastsInDim S16x1024x2048 (![0, 1, 2] : Fin 3 → Fin S16x1024x2048.rank)
  dot_S16x1024x4096_S4096x2048_S16x1024x2048_2_0_01_1_n_n_wf : DotDims.WF S16x1024x4096 S4096x2048 S16x1024x2048 [2] [0] [0, 1] [1] [] []

variable [Facts₀]

def dot_S16x1024x4096_S4096x2048_S16x1024x2048_2_0_01_1_n_n : DotDims S16x1024x4096 S4096x2048 S16x1024x2048 where
  lhsContracting := [2]
  rhsContracting := [0]
  lhsNonContracting := [0, 1]
  rhsNonContracting := [1]
  lhsBatch := []
  rhsBatch := []
  wf := dot_S16x1024x4096_S4096x2048_S16x1024x2048_2_0_01_1_n_n_wf

class Facts : Prop extends Facts₀ where

variable [Facts]
-- ==== Proof.Spec.lean ====
/-
  The value both programs compute, as one function of the three argument arrays.

  For an input entry x put  φ(x) = tanh(c·x) + d·(sin(c·x) · cos(c·x·h))  with the three float words c, d, h the programs
  share (they are never evaluated: the same word stands on both sides). Row (a, s) of the input, a row of 2048 entries,
  gives the 4096 features  φ(x_k)  (k < 2048) followed by  φ(x_k)²  (k < 2048); the output entry (a, s, u) is
      tanh( Σ_{k<2048} φ(x_k) · W[k, u]  +  Σ_{k<2048} φ(x_k)² · W[2048 + k, u]  +  b[u] ).
  One side forms the two sums separately (two matrix products added); the other joins the features into one row of 4096
  and forms one sum over it. A sum over 4096 indices is the sum over the lower 2048 plus the sum over the upper 2048
  (`sum_halves`) in any commutative monoid, so on the extended reals too, infinities included: no finiteness is needed.
-/
import Idealize.ShloMosaic.PureOps.Ideal
import Idealize.ShloMosaic.Lib.ValueIdx
import Mathlib.Algebra.BigOperators.Fin

noncomputable section

open scoped BigOperators

namespace Cert.QProj

open Idealize.ShloMosaic Idealize.ShloMosaic.ValueIdx

/-- The feature of one input entry: tanh(c·x) + d·(sin(c·x) · cos((c·x)·h)). -/
def feat (x : EReal) : EReal :=
  Ideal.tanh (x * Ideal.ofBits .f32 0x40C90FDB#32)
    + Ideal.ofBits .f32 0x3DCCCCCD#32
      * (Ideal.sin (x * Ideal.ofBits .f32 0x40C90FDB#32)
          * Ideal.cos (x * Ideal.ofBits .f32 0x40C90FDB#32 * Ideal.ofBits .f32 0x3F000000#32))

/-- One output entry from one input row `xr`, the two halves `wa`, `wb` of one weight column and one bias entry. -/
def entry (xr wa wb : Fin 2048 → EReal) (bu : EReal) : EReal :=
  Ideal.tanh ((∑ k : Fin 2048, feat (xr k) * wa k + ∑ k : Fin 2048, feat (xr k) * feat (xr k) * wb k) + bu)

/-- Index k of the lower half of 4096. -/
abbrev lo (k : Fin 2048) : Fin 4096 := ⟨k.val, by omega⟩
/-- Index 2048 + k of the upper half of 4096. -/
abbrev hi (k : Fin 2048) : Fin 4096 := ⟨2048 + k.val, by omega⟩

/-- A sum over 4096 indices is the sum over the lower half plus the sum over the upper half. -/
theorem sum_halves {M : Type*} [AddCommMonoid M] (f : Fin 4096 → M) :
    ∑ k : Fin 4096, f k = ∑ k : Fin 2048, f (lo k) + ∑ k : Fin 2048, f (hi k) :=
  Fin.sum_univ_add (a := 2048) (b := 2048) f

/-- The result array: entry (a, s, u) from row (a, s) of `x`, column u of `W` and `b[u]`. -/
def G (x : (⟨3, ![16, 1024, 2048]⟩ : Shape).Idx → EReal) (W : (⟨2, ![4096, 2048]⟩ : Shape).Idx → EReal)
    (b : (⟨1, ![2048]⟩ : Shape).Idx → EReal) : (⟨3, ![16, 1024, 2048]⟩ : Shape).Idx → EReal :=
  fun j => entry (fun k => x (ix3 (j 0) (j 1) k)) (fun k => W (ix2 (lo k) (j 2))) (fun k => W (ix2 (hi k) (j 2)))
    (b (ix1 (j 2)))

/-- The same values laid out as 16384 rows: entry (r, u) from row r of the flattened input `x2`. -/
def G2 (x2 : (⟨2, ![16384, 2048]⟩ : Shape).Idx → EReal) (W : (⟨2, ![4096, 2048]⟩ : Shape).Idx → EReal)
    (b : (⟨1, ![2048]⟩ : Shape).Idx → EReal) : (⟨2, ![16384, 2048]⟩ : Shape).Idx → EReal :=
  fun j => entry (fun k => x2 (ix2 (j 0) k)) (fun k => W (ix2 (lo k) (j 1))) (fun k => W (ix2 (hi k) (j 1)))
    (b (ix1 (j 1)))

end Cert.QProj

end
-- ==== Proof.RefValue.lean ====
/-
  The reference's result, read index by index, is `G`.

  Its feature array holds φ(x) at every entry and the squared array φ(x)²; the two are joined along the last axis into rows
  of 4096, so a joined row at k < 2048 is φ(x_k) and at 2048 + k is φ(x_k)². The contraction with W runs over all 4096
  positions of the joined row; split in its lower and upper half it is the two sums of `entry`. The bias row is b[u] at
  every (a, s).
-/
import proofs.«136118_j68006512165050_2_alg».proof.Proof.Gen.ReferenceIdeal.Read
import proofs.«136118_j68006512165050_2_alg».proof.Proof.Spec
import Idealize.ShloMosaic.Lib.Pipeline.Value
import Idealize.ShloMosaic.Lib.ValueIdx

noncomputable section

open scoped BigOperators

namespace Cert.QProj.Ref

open Idealize.ShloMosaic Idealize.ShloMosaic.ValueIdx Cert.ReferenceIdeal Cert.ReferenceIdeal.Read Cert.QProj

/-- The feature array at an entry is φ of the input entry. -/
theorem features_apply (x : (⟨S16x1024x2048, .f32⟩ : BufTy).Contents (Elt Ideal)) (j : S16x1024x2048.Idx) :
    val_main_v10 (F := Ideal) x j = feat (x j) := rfl

/-- The squared feature array at an entry. -/
theorem squares_apply (x : (⟨S16x1024x2048, .f32⟩ : BufTy).Contents (Elt Ideal)) (j : S16x1024x2048.Idx) :
    val_main_v11 (F := Ideal) x j = feat (x j) * feat (x j) := rfl

/-- The joined row at a position of its lower half is the feature. -/
theorem joined_lo (x : (⟨S16x1024x2048, .f32⟩ : BufTy).Contents (Elt Ideal)) (i : S16x1024x2048.Idx) (k : Fin 2048) :
    val_main_v12 (F := Ideal) x (lidx_main_v13 i (lo k)) = feat (x (ix3 (i 0) (i 1) k)) := by
  unfold val_main_v12
  rw [concatenate_pair_apply_left (t := S16x1024x4096) (s₁ := S16x1024x2048) (s₂ := S16x1024x2048) (2 : Fin 3) _ _ _ (lidx_main_v13 i (lo k)) rfl (ix3 (i 0) (i 1) k)
    (fun b => by match b with | ⟨0, _⟩ => rfl | ⟨1, _⟩ => rfl | ⟨2, _⟩ => rfl)]
  rfl

/-- The joined row at a position of its upper half is the squared feature. -/
theorem joined_hi (x : (⟨S16x1024x2048, .f32⟩ : BufTy).Contents (Elt Ideal)) (i : S16x1024x2048.Idx) (k : Fin 2048) :
    val_main_v12 (F := Ideal) x (lidx_main_v13 i (hi k))
      = feat (x (ix3 (i 0) (i 1) k)) * feat (x (ix3 (i 0) (i 1) k)) := by
  unfold val_main_v12
  rw [concatenate_pair_apply_right (t := S16x1024x4096) (s₁ := S16x1024x2048) (s₂ := S16x1024x2048) (2 : Fin 3) _ _ _ (lidx_main_v13 i (hi k)) rfl rfl (ix3 (i 0) (i 1) k)
    (fun b hb => by match b with | ⟨0, _⟩ => rfl | ⟨1, _⟩ => rfl | ⟨2, _⟩ => exact absurd rfl hb)
    (by show k.val + 2048 = 2048 + k.val; omega)]
  rfl

/-- The weight entry the contraction meets at position k is W[k, u]. -/
theorem weight_idx (i : S16x1024x2048.Idx) (k : Fin 4096) : ridx_main_v13 i k = ix2 k (i 2) :=
  funext fun a => by match a with | ⟨0, _⟩ => rfl | ⟨1, _⟩ => rfl

/-- The bias row at (a, s, u) is b[u]. -/
theorem bias_idx (i : S16x1024x2048.Idx) : idx_main_v14 (idx_main_v15 i) = ix1 (i 2) :=
  funext fun a => by match a with | ⟨0, _⟩ => rfl

/-- The reference's last stage is `G` of the three arguments. -/
theorem stage_eq (x0 : (⟨S16x1024x2048, .f32⟩ : BufTy).Contents (Elt Ideal))
    (x1 : (⟨S4096x2048, .f32⟩ : BufTy).Contents (Elt Ideal)) (x2 : (⟨S2048, .f32⟩ : BufTy).Contents (Elt Ideal)) :
    val_main_v17 (F := Ideal) x0 x1 x2 = G x0 x1 x2 := by
  funext i
  rw [val_main_v17_apply, val_main_v16_apply, val_main_v13_apply, val_main_v15_apply, val_main_v14_apply, sum_halves]
  simp only [joined_lo, joined_hi, weight_idx, bias_idx]
  rfl

end Cert.QProj.Ref

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.KernelBody.lean ====
/-
  The kernel body's stored value at one entry (p, q) of a block of 256 rows.

  The body forms φ of its block of x entry by entry and the squares φ², multiplies each [256, 2048] array with its
  [2048, 2048] weight block into a zero accumulator, adds the two products, adds the bias row broadcast down the 256
  rows, and applies tanh. A product into zeros at (p, q) is Σ_k lhs(p, k) · rhs(k, q); a change of float format is the
  identity on the extended reals. So the stored entry is `entry` of row p of the x block, column q of the two weight
  blocks and the bias row at q.
-/
import proofs.«136118_j68006512165050_2_alg».proof.Proof.Gen.KernelIdeal.Skeleton
import proofs.«136118_j68006512165050_2_alg».proof.Proof.Spec
import proofs.«136118_j68006512165050_2_alg».proof.Proof.LibPlainMatmul
import proofs.«136118_j68006512165050_2_alg».proof.Proof.LibColRowBroadcast
import Idealize.ShloMosaic.Lib.Pipeline.Value
import Idealize.ShloMosaic.Lib.ValueIdx

noncomputable section

open scoped BigOperators

namespace Cert.QProj.Body

open Idealize.ShloMosaic Idealize.ShloMosaic.ValueIdx Cert.KernelIdeal Cert.KernelIdeal.Gen Cert.QProj

/-- Two matrix products into zeros, added, plus a row broadcast down the block, through tanh: at entry (p, q) it is
    tanh((Σ_k a(p,k)·w(k,q) + Σ_k a'(p,k)·w'(k,q)) + r(0,q)). -/
theorem dense2_apply (a a' : FVec Ideal S256x2048 .bf16) (w w' : FVec Ideal S2048x2048 .bf16)
    (r : FVec Ideal S1x2048 .f32) (p : Fin 256) (q : Fin 2048) :
    tanh (F := Ideal) (addf (addf
        (matmul (F := Ideal) dot_S256x2048_S2048x2048_S256x2048_1_0_0_1_n_n none a w (constant (F := Ideal) S256x2048 .f32 0x00000000#32))
        (matmul (F := Ideal) dot_S256x2048_S2048x2048_S256x2048_1_0_0_1_n_n none a' w' (constant (F := Ideal) S256x2048 .f32 0x00000000#32)))
      (broadcastTo S256x2048 r broadcasts_S1x2048_S256x2048)) (ix2 p q)
      = Ideal.tanh ((∑ k : Fin 2048, a (ix2 p k) * w (ix2 k q) + ∑ k : Fin 2048, a' (ix2 p k) * w' (ix2 k q))
          + r (ix2 (0 : Fin 1) q)) := by
  have hd : dot_S256x2048_S2048x2048_S256x2048_1_0_0_1_n_n = DotDims.plain 256 2048 2048 := rfl
  show Ideal.tanh ((FloatOps.matmul dot_S256x2048_S2048x2048_S256x2048_1_0_0_1_n_n none a w (constant (F := Ideal) S256x2048 .f32 0x00000000#32) (ix2 p q)
      + FloatOps.matmul dot_S256x2048_S2048x2048_S256x2048_1_0_0_1_n_n none a' w' (constant (F := Ideal) S256x2048 .f32 0x00000000#32) (ix2 p q))
      + broadcastTo S256x2048 r broadcasts_S1x2048_S256x2048 (ix2 p q)) = _
  rw [hd, Cert.PlainMatmul.matmul_zero_apply, Cert.PlainMatmul.matmul_zero_apply,
    Cert.ColRowBroadcast.rowBroadcast_apply]

/-- The body's stored value at entry (p, q), from the four loaded blocks. -/
theorem pay_apply (x0 : Vec Ideal S256x2048 .f32) (w1 w2 : Vec Ideal S2048x2048 .bf16) (bb : Vec Ideal S1x2048 .f32)
    (p : Fin 256) (q : Fin 2048) :
    k0_pay1 (F := Ideal) x0 w1 w2 bb (ix2 p q)
      = entry (fun k => x0 (ix2 p k)) (fun k => w1 (ix2 k q)) (fun k => w2 (ix2 k q)) (bb (ix2 (0 : Fin 1) q)) := by
  unfold k0_pay1
  simp only [shapeCast_self]
  exact (dense2_apply _ _ _ _ _ p q).trans rfl

end Cert.QProj.Body

end
-- ==== Proof.KernelValue.lean ====
/-
  The kernel's result array after the run is `G` of the three arguments.

  Before the region the host flattens x to 16384 rows (row a·1024 + s is row (a, s)), cuts W into its rows 0..2047 and
  2048..4095 (a change of float format is the identity here) and lays b out as one row. Grid point t handles rows
  256·t .. 256·t + 255: its x block is those rows, its weight and bias blocks are the whole arrays, and it writes back
  rows 256·t .. 256·t + 255 of the output, each entry the body's value (`Body.pay_apply`), which is `G2` at that row.
  The 64 blocks tile the 16384 rows (row r lies in block r / 256), so the output array ends as `G2`; the host's final
  reshape reads entry (a, s, u) at row a·1024 + s, which is `G` at (a, s, u).
-/
import proofs.«136118_j68006512165050_2_alg».proof.Proof.Gen.KernelIdeal.Frame
import proofs.«136118_j68006512165050_2_alg».proof.Proof.KernelBody
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.QProj.Kern

open Idealize.ShloMosaic.ValueIdx Cert.KernelIdeal Cert.KernelIdeal.Gen Cert.QProj

variable (m : (ℓ : Loc nD τ sig) → Buf (Elt Ideal) ℓ) (ρ : Dev nD → PrngReg)

theorem hz : (![0, 0] : Fin 2 → Nat) = fun _ => 0 := funext fun a => by fin_cases a <;> rfl

/-! ## The host lines before the region -/

/-- The flattened input the region finds: x re-laid as 16384 rows. -/
theorem V_rows (c : Dev nD) : (V m c main_call0_v0 : S16384x2048.Idx → EReal)
    = shapeCast S16384x2048 (m ((c : Thread nD τ).loc main_arg0)) shapeCasts_S16x1024x2048_S16384x2048 := by
  show StableHlo.after hostOps0 (fun b => m (c, b)) (Proc.devRef .tc main_call0_v0) = _
  after_results
  rfl

/-- The first weight block the region finds: rows 0..2047 of W. -/
theorem V_wlo (c : Dev nD) : (V m c main_call0_v2 : S2048x2048.Idx → EReal)
    = truncf (F := Ideal) .bf16 (extractStridedSlice S2048x2048 ![0, 0] (m ((c : Thread nD τ).loc main_arg1)) slices_S4096x2048_S2048x2048_0_0) bitsLt_bf16_f32 := by
  show StableHlo.after hostOps0 (fun b => m (c, b)) (Proc.devRef .tc main_call0_v2) = _
  after_results
  rfl

/-- The second weight block the region finds: rows 2048..4095 of W. -/
theorem V_whi (c : Dev nD) : (V m c main_call0_v4 : S2048x2048.Idx → EReal)
    = truncf (F := Ideal) .bf16 (extractStridedSlice S2048x2048 ![2048, 0] (m ((c : Thread nD τ).loc main_arg1)) slices_S4096x2048_S2048x2048_2048_0) bitsLt_bf16_f32 := by
  show StableHlo.after hostOps0 (fun b => m (c, b)) (Proc.devRef .tc main_call0_v4) = _
  after_results
  rfl

/-- The bias row the region finds: b as one row. -/
theorem V_bias (c : Dev nD) : (V m c main_call0_v5 : S1x2048.Idx → EReal)
    = shapeCast S1x2048 (m ((c : Thread nD τ).loc main_arg2)) shapeCasts_S2048_S1x2048 := by
  show StableHlo.after hostOps0 (fun b => m (c, b)) (Proc.devRef .tc main_call0_v5) = _
  after_results
  rfl

/-! ## The windows' blocks at a point -/

/-- The printed index maps over the grid: the x window and the output window move one block of 256 rows per point, the
    weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The x block of point t at (p, k) is row 256·t + p of the flattened input, column k. -/
theorem xblk_apply (c : Dev nD) (t : Fin cfg0.N) (z : S256x2048.Idx) (i : S16384x2048.Idx)
    (h0 : (i 0).val = t.val * 256 + (z 0).val) (h1 : (i 1).val = (z 1).val) :
    (iblk m c 0 t : Vec Ideal S256x2048 .f32) z = (V m c main_call0_v0 : S16384x2048.Idx → EReal) i := by
  obtain ⟨e0, e1, -⟩ := idx_facts t
  unfold iblk
  rw [View.read_apply]
  show V m c main_call0_v0 _ = V m c main_call0_v0 _
  congr 1
  funext a
  apply Fin.ext
  match a with
  | ⟨0, _⟩ => show win0_0.index t 0 * 256 + 1 * (z 0).val = (i 0).val; rw [e0, h0]; omega
  | ⟨1, _⟩ => show win0_0.index t 1 * 2048 + 1 * (z 1).val = (i 1).val; rw [e1, h1]; omega

/-- The first weight block of every point is the whole first weight array. -/
theorem wlo_blk (c : Dev nD) (t : Fin cfg0.N) (z : S2048x2048.Idx) :
    (iblk m c 1 t : Vec Ideal S2048x2048 .bf16) z = (V m c main_call0_v2 : S2048x2048.Idx → EReal) z := by
  obtain ⟨-, -, e0, e1, -⟩ := idx_facts t
  unfold iblk
  rw [View.read_apply]
  show V m c main_call0_v2 _ = V m c main_call0_v2 _
  congr 1
  funext a
  apply Fin.ext
  match a with
  | ⟨0, _⟩ => show win0_1.index t 0 * 2048 + 1 * (z 0).val = (z 0).val; rw [e0]; omega
  | ⟨1, _⟩ => show win0_1.index t 1 * 2048 + 1 * (z 1).val = (z 1).val; rw [e1]; omega

/-- The second weight block of every point is the whole second weight array. -/
theorem whi_blk (c : Dev nD) (t : Fin cfg0.N) (z : S2048x2048.Idx) :
    (iblk m c 2 t : Vec Ideal S2048x2048 .bf16) z = (V m c main_call0_v4 : S2048x2048.Idx → EReal) z := by
  obtain ⟨-, -, -, -, e0, e1, -⟩ := idx_facts t
  unfold iblk
  rw [View.read_apply]
  show V m c main_call0_v4 _ = V m c main_call0_v4 _
  congr 1
  funext a
  apply Fin.ext
  match a with
  | ⟨0, _⟩ => show win0_2.index t 0 * 2048 + 1 * (z 0).val = (z 0).val; rw [e0]; omega
  | ⟨1, _⟩ => show win0_2.index t 1 * 2048 + 1 * (z 1).val = (z 1).val; rw [e1]; omega

/-- The bias block of every point is the whole bias row. -/
theorem bias_blk (c : Dev nD) (t : Fin cfg0.N) (z : S1x2048.Idx) :
    (iblk m c 3 t : Vec Ideal S1x2048 .f32) z = (V m c main_call0_v5 : S1x2048.Idx → EReal) z := by
  obtain ⟨-, -, -, -, -, -, e0, e1, -⟩ := idx_facts t
  unfold iblk
  rw [View.read_apply]
  show V m c main_call0_v5 _ = V m c main_call0_v5 _
  congr 1
  funext a
  apply Fin.ext
  match a with
  | ⟨0, _⟩ => show win0_3.index t 0 * 1 + 1 * (z 0).val = (z 0).val; rw [e0]; omega
  | ⟨1, _⟩ => show win0_3.index t 1 * 2048 + 1 * (z 1).val = (z 1).val; rw [e1]; omega

/-! ## The blocks as entries of the arguments -/

/-- The first weight array at (k, q) is W[k, q]. -/
theorem wlo_apply (c : Dev nD) (k q : Fin 2048) :
    (V m c main_call0_v2 : S2048x2048.Idx → EReal) (ix2 k q) = m ((c : Thread nD τ).loc main_arg1) (ix2 (lo k) q) := by
  rw [V_wlo]
  show extractStridedSlice S2048x2048 ![0, 0] (m ((c : Thread nD τ).loc main_arg1)) slices_S4096x2048_S2048x2048_0_0 (ix2 k q) = _
  refine extractStridedSlice_apply _ _ _ (ix2 k q) (ix2 (lo k) q) fun a => ?_
  match a with
  | ⟨0, _⟩ => show k.val = 0 + k.val; omega
  | ⟨1, _⟩ => show q.val = 0 + q.val; omega

/-- The second weight array at (k, q) is W[2048 + k, q]. -/
theorem whi_apply (c : Dev nD) (k q : Fin 2048) :
    (V m c main_call0_v4 : S2048x2048.Idx → EReal) (ix2 k q) = m ((c : Thread nD τ).loc main_arg1) (ix2 (hi k) q) := by
  rw [V_whi]
  show extractStridedSlice S2048x2048 ![2048, 0] (m ((c : Thread nD τ).loc main_arg1)) slices_S4096x2048_S2048x2048_2048_0 (ix2 k q) = _
  refine extractStridedSlice_apply _ _ _ (ix2 k q) (ix2 (hi k) q) fun a => ?_
  match a with
  | ⟨0, _⟩ => rfl
  | ⟨1, _⟩ => show q.val = 0 + q.val; omega

/-- The bias row at (0, q) is b[q]. -/
theorem bias_apply (c : Dev nD) (q : Fin 2048) :
    (V m c main_call0_v5 : S1x2048.Idx → EReal) (ix2 (0 : Fin 1) q) = m ((c : Thread nD τ).loc main_arg2) (ix1 q) := by
  rw [V_bias]
  exact Cert.ColRowBroadcast.rowCast_apply _ _ (0 : Fin 1) q

/-- The flattened input, named. -/
abbrev rows (c : Dev nD) : S16384x2048.Idx → EReal :=
  shapeCast S16384x2048 (m ((c : Thread nD τ).loc main_arg0)) shapeCasts_S16x1024x2048_S16384x2048

/-- The body's value at entry y of point t's block is `G2` at the array entry i that y lands on (row 256·t + y₀). -/
theorem body_block (c : Dev nD) (t : Fin cfg0.N) (y : S256x2048.Idx) (i : S16384x2048.Idx)
    (h0 : (i 0).val = t.val * 256 + (y 0).val) (h1 : (i 1).val = (y 1).val) :
    k0_pay1 (F := Ideal) (iblk m c 0 t) (iblk m c 1 t) (iblk m c 2 t) (iblk m c 3 t) y
      = G2 (rows m c) (m ((c : Thread nD τ).loc main_arg1)) (m ((c : Thread nD τ).loc main_arg2)) i := by
  obtain ⟨p, q, rfl⟩ : ∃ (p : Fin 256) (q : Fin 2048), y = ix2 p q := ⟨y 0, y 1, eq_ix2 y⟩
  have hq : i 1 = q := Fin.ext h1
  rw [Body.pay_apply]
  unfold G2
  rw [hq]
  have ex : (fun k : Fin 2048 => (iblk m c 0 t : Vec Ideal S256x2048 .f32) (ix2 p k)) = fun k => rows m c (ix2 (i 0) k) :=
    funext fun k => (xblk_apply m c t (ix2 p k) (ix2 (i 0) k) h0 rfl).trans (congrFun (V_rows m c) _)
  have ea : (fun k : Fin 2048 => (iblk m c 1 t : Vec Ideal S2048x2048 .bf16) (ix2 k q)) = fun k => m ((c : Thread nD τ).loc main_arg1) (ix2 (lo k) q) :=
    funext fun k => (wlo_blk m c t (ix2 k q)).trans (wlo_apply m c k q)
  have eb : (fun k : Fin 2048 => (iblk m c 2 t : Vec Ideal S2048x2048 .bf16) (ix2 k q)) = fun k => m ((c : Thread nD τ).loc main_arg1) (ix2 (hi k) q) :=
    funext fun k => (whi_blk m c t (ix2 k q)).trans (whi_apply m c k q)
  have ec : (iblk m c 3 t : Vec Ideal S1x2048 .f32) (ix2 (0 : Fin 1) q) = m ((c : Thread nD τ).loc main_arg2) (ix1 q) :=
    (bias_blk m c t (ix2 (0 : Fin 1) q)).trans (bias_apply m c q)
  rw [ex, ea, eb, ec]

/-! ## What a point writes back, the cover, the array after the run -/

/-- Point t writes back block t of `G2`. -/
theorem flushed_eq (c : Dev nD) (t : Fin cfg0.N) :
    (dats m 0 c).flushed 4 t = ((cfg0.win 4).blk t).view.read (Elt Ideal)
      (G2 (rows m c) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S256x2048) hz, View.ld_unit_zero (S := S2048x2048) hz, View.ld_unit_zero (S := S1x2048) hz]
  obtain ⟨-, -, -, -, -, -, -, -, e8, e9⟩ := idx_facts t
  funext y
  refine body_block m c t y (((cfg0.win 4).blk t).view.emb y) ?_ ?_
  · show win0_4.index t 0 * 256 + 1 * (y 0).val = t.val * 256 + (y 0).val; rw [e8]; omega
  · show win0_4.index t 1 * 2048 + 1 * (y 1).val = (y 1).val; rw [e9]; omega

/-- An index of the output array is in point t's block iff each coordinate is in the block's range. -/
theorem mem_blk (t : Fin cfg0.N) (i : S16384x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_call0_v6).slice (win0_4.rect t)).set ↔ _
  rw [View.set_slice_whole, Rect.mem_set_unit]
  exact Iff.rfl

/-- Every row r of the output lies in the block of point r / 256, which is written back. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 64 := N_0
  have ht : (i 0).val / 256 < cfg0.N := by rw [hN]; omega
  obtain ⟨-, -, -, -, -, -, -, -, e8, e9⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ 0 * 256 ≤ (i 0).val ∧ (i 0).val < win0_4.index ⟨(i 0).val / 256, ht⟩ 0 * 256 + 256
    rw [e8]; show (i 0).val / 256 * 256 ≤ (i 0).val ∧ (i 0).val < (i 0).val / 256 * 256 + 256; omega
  | ⟨1, _⟩ =>
    show win0_4.index ⟨(i 0).val / 256, ht⟩ 1 * 2048 ≤ (i 1).val ∧ (i 1).val < win0_4.index ⟨(i 0).val / 256, ht⟩ 1 * 2048 + 2048
    rw [e9]; omega

/-- The output array after the region is `G2`. -/
theorem final (c : Dev nD) : (dats m 0 c).arrAt 4 cfg0.N
    = G2 (rows m c) (m ((c : Thread nD τ).loc main_arg1)) (m ((c : Thread nD τ).loc main_arg2)) :=
  (dats m 0 c).arrAt_eq_of_cover 4 _ (fun t _ => flushed_eq m c t) cover

end Cert.QProj.Kern

end
-- ==== Proof.KernelRun.lean ====
/-
  The kernel's run, read: the result array ends as `G` of the three arguments, the arguments unchanged.

  After the region the host re-lays the 16384 output rows as [16, 1024, 2048]: entry (a, s, u) is row a·1024 + s,
  column u. Row a·1024 + s of the flattened input is row (a, s) of x, so `G2` there is `G` at (a, s, u).
-/
import proofs.«136118_j68006512165050_2_alg».proof.Proof.KernelValue

set_option maxRecDepth 16384

noncomputable section

open scoped BigOperators
open Idealize.ShloMosaic Idealize.ShloMosaic.TcCoe Idealize.SL.Sem
open Idealize.ShloMosaic.Pipeline (Dat)

namespace Cert.QProj.Kern

open Idealize.ShloMosaic.ValueIdx Cert.KernelIdeal Cert.KernelIdeal.Gen Cert.QProj

variable (m : (ℓ : Loc nD τ sig) → Buf (Elt Ideal) ℓ) (ρ : Dev nD → PrngReg)

/-- Row a·1024 + s of the 16384. -/
abbrev rowOf (a : Fin 16) (s : Fin 1024) : Fin 16384 := ⟨a.val * 1024 + s.val, by omega⟩

/-- Row a·1024 + s of the flattened input is row (a, s) of x. -/
theorem rows_apply (c : Dev nD) (a : Fin 16) (s : Fin 1024) (k : Fin 2048) :
    rows m c (ix2 (rowOf a s) k) = m ((c : Thread nD τ).loc main_arg0) (ix3 a s k) := by
  refine shapeCast_apply _ _ (ix2 (rowOf a s) k) (ix3 a s k) ?_
  rw [Shape.rowMajor_val_two, Shape.rowMajor_val_three]
  rfl

/-- `G2` of the flattened input at row a·1024 + s is `G` at (a, s, ·). -/
theorem G2_rows (c : Dev nD) (a : Fin 16) (s : Fin 1024) (u : Fin 2048) :
    G2 (rows m c) (m ((c : Thread nD τ).loc main_arg1)) (m ((c : Thread nD τ).loc main_arg2)) (ix2 (rowOf a s) u)
      = G (m ((c : Thread nD τ).loc main_arg0)) (m ((c : Thread nD τ).loc main_arg1)) (m ((c : Thread nD τ).loc main_arg2)) (ix3 a s u) := by
  unfold G2 G
  have e : (fun k : Fin 2048 => rows m c (ix2 (rowOf a s) k)) = fun k => m ((c : Thread nD τ).loc main_arg0) (ix3 a s k) :=
    funext fun k => rows_apply m c a s k
  show entry (fun k => rows m c (ix2 (rowOf a s) k)) _ _ _ = entry (fun k => m ((c : Thread nD τ).loc main_arg0) (ix3 a s k)) _ _ _
  rw [e]

/-- The result buffer after the host's final reshape is `G`. -/
theorem result_eq (c : Dev nD) :
    Pipeline.afterTail₀ cfgs (dats m) 0 (V0 m) [hostOps1] c main_v0
      = G (m ((c : Thread nD τ).loc main_arg0)) (m ((c : Thread nD τ).loc main_arg1)) (m ((c : Thread nD τ).loc main_arg2)) := by
  have e : Pipeline.afterTail₀ cfgs (dats m) 0 (V0 m) [hostOps1] c main_v0
      = shapeCast (s := S16384x2048) S16x1024x2048
          (Pipeline.withArrays spec0 c (V0 m c) (fun w => (dats m 0 c).arrAt w cfg0.N) (Proc.devRef .tc (Pipeline.arrRef spec0 4)))
          shapeCasts_S16384x2048_S16x1024x2048 := by
    unfold Pipeline.afterTail₀
    show StableHlo.after hostOps1 _ (Proc.devRef .tc main_v0) = _
    after_results
    rfl
  rw [e, Pipeline.withArrays_arr spec0 launch0.win.arr_inj c _ _ 4, final]
  funext j
  obtain ⟨a, s, u, rfl⟩ : ∃ (a : Fin 16) (s : Fin 1024) (u : Fin 2048), j = ix3 a s u := ⟨j 0, j 1, j 2, eq_ix3 j⟩
  rw [shapeCast_apply _ _ (ix3 a s u) (ix2 (rowOf a s) u) (by rw [Shape.rowMajor_val_two, Shape.rowMajor_val_three]; rfl)]
  exact G2_rows m c a s u

/-- Every weakly fair execution of the kernel program ends with the result array at `G` of the arguments and the
    arguments as launched. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.QProj.Kern

end
-- ==== Proof.lean ====
/-
  The kernel and its reference compute one function of (x, W, b) on the extended reals.

  For an input entry x let φ(x) = tanh(c·x) + d·(sin(c·x)·cos((c·x)·h)), with c, d, h the three float words both programs
  spell alike. The reference joins, for each of the 16·1024 rows of x, the 2048 features φ(x_k) and their 2048 squares
  into one row of 4096, contracts it with the 4096 rows of W, adds b and applies tanh. The kernel flattens x to 16384
  rows, cuts W into its upper and lower 2048 rows, and for each block of 256 rows forms the two products
  φ(x)·W[0..2047] and φ(x)²·W[2048..4095] into zero accumulators, adds them, adds b and applies tanh; the host re-lays
  the 16384 rows as [16, 1024, 2048].

  A matrix product into zeros is, entry by entry, the plain sum over the contracted index; a change of float format is the
  identity; and a sum over 4096 indices is the sum over its lower half plus the sum over its upper half — a law of every
  commutative monoid, so of the extended reals with their infinities. Hence both results are, at (a, s, u),
      tanh( Σ_{k<2048} φ(x[a,s,k])·W[k,u] + Σ_{k<2048} φ(x[a,s,k])²·W[2048+k,u] + b[u] )
  (`Cert.QProj.G`), and the finiteness of the inputs is never used. The idealization rewrote no operation, so the
  kernel's idealized text is its own text read on the extended reals. The three frames are the generated frame of each
  kernel program and the reference's generated run with its result dropped.
-/
import proofs.«136118_j68006512165050_2_alg».proof.Defs
import proofs.«136118_j68006512165050_2_alg».proof.Proof.Gen.Kernel
import proofs.«136118_j68006512165050_2_alg».proof.Proof.Gen.Kernel.Skeleton
import proofs.«136118_j68006512165050_2_alg».proof.Proof.Gen.Kernel.Launch
import proofs.«136118_j68006512165050_2_alg».proof.Proof.Gen.Kernel.Points
import proofs.«136118_j68006512165050_2_alg».proof.Proof.Gen.Kernel.Frame
import proofs.«136118_j68006512165050_2_alg».proof.Proof.Gen.KernelIdeal
import proofs.«136118_j68006512165050_2_alg».proof.Proof.Gen.KernelIdeal.Skeleton
import proofs.«136118_j68006512165050_2_alg».proof.Proof.Gen.KernelIdeal.Launch
import proofs.«136118_j68006512165050_2_alg».proof.Proof.Gen.KernelIdeal.Points
import proofs.«136118_j68006512165050_2_alg».proof.Proof.Gen.KernelIdeal.Frame
import proofs.«136118_j68006512165050_2_alg».proof.Proof.Gen.ReferenceIdeal
import proofs.«136118_j68006512165050_2_alg».proof.Proof.Gen.Pre_finite_inputs
import proofs.«136118_j68006512165050_2_alg».proof.Proof.Gen.ReferenceIdeal.Run
import proofs.«136118_j68006512165050_2_alg».proof.Proof.Gen.ReferenceIdeal.Read
import proofs.«136118_j68006512165050_2_alg».proof.Proof.RefValue
import proofs.«136118_j68006512165050_2_alg».proof.Proof.KernelRun
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on x, W and b both programs end with the result array at `G` of the three arguments. -/
theorem algebraic : Cert.algebraic_KernelIdeal_ReferenceIdeal := by
  intro m ρ m' ρ' _ hagree
  refine ⟨fun c => Cert.QProj.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.QProj.Kern.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.QProj.Ref.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
